-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x512 : Shape := ⟨3, ![8, 256, 512]⟩
abbrev S8x64x512 : Shape := ⟨3, ![8, 64, 512]⟩
abbrev S1024x512 : Shape := ⟨2, ![1024, 512]⟩
abbrev S1024 : Shape := ⟨1, ![1024]⟩
abbrev S_ : Shape := ⟨0, ![]⟩

class Facts : Prop where
  bcast_S_S8x256x512 : S_.BroadcastsInDim S8x256x512 (![] : Fin 0 → Fin S8x256x512.rank)
  reducesTo_S8x256x512_S_d0_1_2 : S8x256x512.ReducesTo [0, 1, 2] S_
  h_S_ : 0 < S_.numel
  bcast_S_S8x64x512 : S_.BroadcastsInDim S8x64x512 (![] : Fin 0 → Fin S8x64x512.rank)
  reducesTo_S8x64x512_S_d0_1_2 : S8x64x512.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x256x512 .f32) (main_arg1 : FVec F S8x64x512 .f32) (main_arg2 : FVec F S1024x512 .f32) (main_arg3 : FVec F S1024 .f32) : IVec S_ 1 :=
  let main_v0 : FVec F S8x256x512 .f32 := Host.absf main_arg0
  let main_cst : FVec F S_ .f32 := constant S_ .f32 0x7F800000#32
  let main_v1 : FVec F S8x256x512 .f32 := broadcastInDim S8x256x512 ![] bcast_S_S8x256x512 main_cst
  let main_v2 : IVec S8x256x512 1 := cmpf .olt main_v0 main_v1
  let main_c : IVec S_ 1 := constantI S_ 1 1#1
  let main_v3 : IVec S_ 1 := (fun x v => Host.reduce IntOp.andi x v reducesTo_S8x256x512_S_d0_1_2 h_S_) main_v2 main_c
  let main_v4 : FVec F S8x64x512 .f32 := Host.absf main_arg1
  let main_cst_0 : FVec F S_ .f32 := constant S_ .f32 0x7F800000#32
  let main_v5 : FVec F S8x64x512 .f32 := broadcastInDim S8x64x512 ![] bcast_S_S8x64x512 main_cst_0
  let main_v6 : IVec S8x64x512 1 := cmpf .olt main_v4 main_v5
  let main_c_1 : IVec S_ 1 := constantI S_ 1 1#1
  let main_v7 : IVec S_ 1 := (fun x v => Host.reduce IntOp.andi x v reducesTo_S8x64x512_S_d0_1_2 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x256x512 : Shape := ⟨3, ![8, 256, 512]⟩
abbrev S8x64x512 : Shape := ⟨3, ![8, 64, 512]⟩
abbrev S1024x512 : Shape := ⟨2, ![1024, 512]⟩
abbrev S1024 : Shape := ⟨1, ![1024]⟩
abbrev S1x1x1024 : Shape := ⟨3, ![1, 1, 1024]⟩
abbrev S8x256x64x1024 : Shape := ⟨4, ![8, 256, 64, 1024]⟩
abbrev S1x64x512 : Shape := ⟨3, ![1, 64, 512]⟩
abbrev S1x64x64x1024 : Shape := ⟨4, ![1, 64, 64, 1024]⟩
abbrev S64x1024 : Shape := ⟨2, ![64, 1024]⟩
abbrev S64x512 : Shape := ⟨2, ![64, 512]⟩
abbrev S1x1024 : Shape := ⟨2, ![1, 1024]⟩
abbrev S8x1024 : Shape := ⟨2, ![8, 1024]⟩
abbrev S64x1x1024 : Shape := ⟨3, ![64, 1, 1024]⟩
abbrev S1x8x1024 : Shape := ⟨3, ![1, 8, 1024]⟩
abbrev S64x8x1024 : Shape := ⟨3, ![64, 8, 1024]⟩
abbrev S1x64x8x1024 : Shape := ⟨4, ![1, 64, 8, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8x256x512, .f32⟩
  | .hbm, ⟨1, _⟩ => ⟨S8x64x512, .f32⟩
  | .hbm, ⟨2, _⟩ => ⟨S1024x512, .f32⟩
  | .hbm, ⟨3, _⟩ => ⟨S1024, .f32⟩
  | .hbm, ⟨4, _⟩ => ⟨S1x1x1024, .f32⟩
  | .hbm, ⟨5, _⟩ => ⟨S8x256x64x1024, .f32⟩
  | .local _ .vmem, ⟨0, _⟩ => ⟨S1x64x512, .f32⟩
  | .local _ .vmem, ⟨1, _⟩ => ⟨S1x64x512, .f32⟩
  | .local _ .vmem, ⟨2, _⟩ => ⟨S1x64x512, .f32⟩
  | .local _ .vmem, ⟨3, _⟩ => ⟨S1x64x512, .f32⟩
  | .local _ .vmem, ⟨4, _⟩ => ⟨S1024x512, .f32⟩
  | .local _ .vmem, ⟨5, _⟩ => ⟨S1x1x1024, .f32⟩
  | .local _ .vmem, ⟨6, _⟩ => ⟨S1x64x64x1024, .f32⟩
  | .local _ .vmem, ⟨7, _⟩ => ⟨S1x64x64x1024, .f32⟩
  | .local _ .vmem, ⟨8, _⟩ => ⟨S64x1024, .f32⟩
  | _, _ => ⟨S8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_5 : BitVec 32 := 0#32
  let c8_i32 : BitVec 32 := 8#32
  let v9 : BitVec 32 := Scalar.addi c0_i32_5 c8_i32
  let c1_i32 : BitVec 32 := 1#32
  ⟨c0_i32_5, v9, c1_i32⟩
def k0_mult1 (k0_t1 : Fin k0_t1_loop.trips) : BitVec 32 :=
  let c0_i32_5 : BitVec 32 := 0#32
  let c1_i32 : BitVec 32 := 1#32
  let arg8 : BitVec 32 := Scf.iv c0_i32_5 c1_i32 k0_t1
  let c8_i32_7 : BitVec 32 := 8#32
  let v10 : BitVec 32 := Scalar.muli arg8 c8_i32_7
  v10
def k0_off1 (k0_t1 : Fin k0_t1_loop.trips) : Fin 2 → Nat :=
  let c0_i32_5 : BitVec 32 := 0#32
  let c1_i32 : BitVec 32 := 1#32
  let arg8 : BitVec 32 := Scf.iv c0_i32_5 c1_i32 k0_t1
  let c8_i32_7 : BitVec 32 := 8#32
  let v10 : BitVec 32 := Scalar.muli arg8 c8_i32_7
  let v11 : BitVec 32 := v10
  let v12 : Index := Scalar.indexCast v11
  let c0_8 : Index := 0#32
  ![v12.toNat, 0]
def k0_off2 (k0_t1 : Fin k0_t1_loop.trips) : Fin 4 → Nat :=
  let c0_9 : Index := 0#32
  let c0_10 : Index := 0#32
  let c0_i32_5 : BitVec 32 := 0#32
  let c1_i32 : BitVec 32 := 1#32
  let arg8 : BitVec 32 := Scf.iv c0_i32_5 c1_i32 k0_t1
  let c8_i32_7 : BitVec 32 := 8#32
  let v10 : BitVec 32 := Scalar.muli arg8 c8_i32_7
  let v11 : BitVec 32 := v10
  let v19 : Index := Scalar.indexCast v11
  let c0_11 : Index := 0#32
  ![0, 0, v19.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S1024_S1x1x1024 : S1024.ShapeCasts S1x1x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1x1024 : S1x1x1024.ShapeCasts S1x1x1024
  shapeCasts_S1x1x1024_S1024 : S1x1x1024.ShapeCasts S1024
  shapeCasts_S1024_S1x1024 : S1024.ShapeCasts S1x1024
  broadcasts_S1x1024_S64x1024 : S1x1024.Broadcasts S64x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  h_S8x1024 : 0 < S8x1024.numel
  shapeCasts_S64x1024_S64x1x1024 : S64x1024.ShapeCasts S64x1x1024
  shapeCasts_S8x1024_S1x8x1024 : S8x1024.ShapeCasts S1x8x1024
  broadcasts_S64x1x1024_S64x8x1024 : S64x1x1024.Broadcasts S64x8x1024
  broadcasts_S1x8x1024_S64x8x1024 : S1x8x1024.Broadcasts S64x8x1024
  h_S1x64x8x1024 : 0 < S1x64x8x1024.numel
  shapeCasts_S1x64x8x1024_S64x8x1024 : S1x64x8x1024.ShapeCasts S64x8x1024
  shapeCasts_S64x8x1024_S1x64x8x1024 : S64x8x1024.ShapeCasts S1x64x8x1024
  dot_S64x512_S1024x512_S64x1024_1_1_0_0_n_n_wf : DotDims.WF S64x512 S1024x512 S64x1024 [1] [1] [0] [0] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S8x1024.size a ≤ S64x1024.size a
  k0_off2_inb : ∀ k0_t1 : Fin k0_t1_loop.trips, ∀ a, (k0_off2 k0_t1) a + S1x64x8x1024.size a ≤ S1x64x64x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x512.size a ≤ S8x256x512.size a
  hwx0_0 : ∀ i : grid0.Coords, EltTy.bits .f32 = 32 ∨ (Rect.block (s := S8x256x512) S1x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S8x64x512.size a
  hwx0_1 : ∀ i : grid0.Coords, EltTy.bits .f32 = 32 ∨ (Rect.block (s := S8x64x512) S1x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .f32 = 32 ∨ (Rect.block (s := S1024x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S1x1x1024.size a
  hwx0_3 : ∀ i : grid0.Coords, EltTy.bits .f32 = 32 ∨ (Rect.block (s := S1x1x1024) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x64x1024.size a ≤ S8x256x64x1024.size a
  hwx0_4 : ∀ i : grid0.Coords, EltTy.bits .f32 = 32 ∨ (Rect.block (s := S8x256x64x1024) S1x64x64x1024.size (cc0_transform_4 i) (hinb0_4 i)).WholeWords (EltTy.packing .f32)

variable [Facts₀]

def dot_S64x512_S1024x512_S64x1024_1_1_0_0_n_n : DotDims S64x512 S1024x512 S64x1024 where
  lhsContracting := [1]
  rhsContracting := [1]
  lhsNonContracting := [0]
  rhsNonContracting := [0]
  lhsBatch := []
  rhsBatch := []
  wf := dot_S64x512_S1024x512_S64x1024_1_1_0_0_n_n_wf

abbrev win0_0 : Pipeline.Window sig grid0 :=
  Pipeline.Window.ofSpec (Memref.whole main_arg0) S1x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64x64x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x256x512 : Shape := ⟨3, ![8, 256, 512]⟩
abbrev S8x64x512 : Shape := ⟨3, ![8, 64, 512]⟩
abbrev S1024x512 : Shape := ⟨2, ![1024, 512]⟩
abbrev S1024 : Shape := ⟨1, ![1024]⟩
abbrev S8x256x1x512 : Shape := ⟨4, ![8, 256, 1, 512]⟩
abbrev S8x1x64x512 : Shape := ⟨4, ![8, 1, 64, 512]⟩
abbrev S8x256x64x512 : Shape := ⟨4, ![8, 256, 64, 512]⟩
abbrev S8x256x64x1024 : Shape := ⟨4, ![8, 256, 64, 1024]⟩
abbrev S1x1x1x1024 : Shape := ⟨4, ![1, 1, 1, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S8x64x512, .f32⟩
  | .hbm, ⟨2, _⟩ => ⟨S1024x512, .f32⟩
  | .hbm, ⟨3, _⟩ => ⟨S1024, .f32⟩
  | .hbm, ⟨4, _⟩ => ⟨S8x256x1x512, .f32⟩
  | .hbm, ⟨5, _⟩ => ⟨S8x1x64x512, .f32⟩
  | .hbm, ⟨6, _⟩ => ⟨S8x256x64x512, .f32⟩
  | .hbm, ⟨7, _⟩ => ⟨S8x256x64x512, .f32⟩
  | .hbm, ⟨8, _⟩ => ⟨S8x256x64x512, .f32⟩
  | .hbm, ⟨9, _⟩ => ⟨S8x256x64x1024, .f32⟩
  | .hbm, ⟨10, _⟩ => ⟨S1x1x1x1024, .f32⟩
  | .hbm, ⟨11, _⟩ => ⟨S8x256x64x1024, .f32⟩
  | .hbm, ⟨12, _⟩ => ⟨S8x256x64x1024, .f32⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S8x256x512_S8x256x1x512_0_1_3 : S8x256x512.BroadcastsInDim S8x256x1x512 (![0, 1, 3] : Fin 3 → Fin S8x256x1x512.rank)
  bcast_S8x64x512_S8x1x64x512_0_2_3 : S8x64x512.BroadcastsInDim S8x1x64x512 (![0, 2, 3] : Fin 3 → Fin S8x1x64x512.rank)
  bcast_S8x256x1x512_S8x256x64x512_0_1_2_3 : S8x256x1x512.BroadcastsInDim S8x256x64x512 (![0, 1, 2, 3] : Fin 4 → Fin S8x256x64x512.rank)
  bcast_S8x1x64x512_S8x256x64x512_0_1_2_3 : S8x1x64x512.BroadcastsInDim S8x256x64x512 (![0, 1, 2, 3] : Fin 4 → Fin S8x256x64x512.rank)
  bcast_S1024_S1x1x1x1024_3 : S1024.BroadcastsInDim S1x1x1x1024 (![3] : Fin 1 → Fin S1x1x1x1024.rank)
  bcast_S1x1x1x1024_S8x256x64x1024_0_1_2_3 : S1x1x1x1024.BroadcastsInDim S8x256x64x1024 (![0, 1, 2, 3] : Fin 4 → Fin S8x256x64x1024.rank)
  dot_S8x256x64x512_S1024x512_S8x256x64x1024_3_1_012_0_n_n_wf : DotDims.WF S8x256x64x512 S1024x512 S8x256x64x1024 [3] [1] [0, 1, 2] [0] [] []

variable [Facts₀]

def dot_S8x256x64x512_S1024x512_S8x256x64x1024_3_1_012_0_n_n : DotDims S8x256x64x512 S1024x512 S8x256x64x1024 where
  lhsContracting := [3]
  rhsContracting := [1]
  lhsNonContracting := [0, 1, 2]
  rhsNonContracting := [0]
  lhsBatch := []
  rhsBatch := []
  wf := dot_S8x256x64x512_S1024x512_S8x256x64x1024_3_1_012_0_n_n_wf

class Facts : Prop extends Facts₀ where

variable [Facts]
-- ==== Proof.LibAggLinear.lean ====
/-
  Real-valued extended reals, and the law that lets a weighted row aggregation pass through a right matrix product.

  An extended real is REAL when it is the image of a real number. Reals are closed under `+`, `·`, `max` and finite
  sums, and on them the extended reals' arithmetic is the reals' (where distributivity holds, which it does not
  at the infinities).

  The law (`agg_dot`): for real coefficients, aggregating rows and then multiplying on the right by a matrix column
  is multiplying each row first and then aggregating:
    ∑ₖ ((z + ∑_{r ∈ E} a r k · n r) + c k · t) · W k  =  (z + ∑_{r ∈ E} (∑ₖ a r k · W k) · n r) + (∑ₖ c k · W k) · t,
  with `z = 0`. It is distributivity and an exchange of two finite sums.
-/
import Idealize.ShloMosaic.PureOps.Ideal

noncomputable section

namespace Cert.Lib.AggLinear

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption

/-- The embedding of the reals commutes with finite sums. -/
theorem coe_sum {ι : Type*} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

theorem IsReal.sum {ι : Type*} (s : Finset ι) (f : ι → EReal) (h : ∀ i ∈ s, IsReal (f i)) : IsReal (∑ i ∈ s, f i) := by
  induction s using Finset.cons_induction with
  | empty => simpa using isReal_zero
  | cons a s ha ih =>
    rw [Finset.sum_cons]
    exact (h a (Finset.mem_cons_self a s)).add (ih fun i hi => h i (Finset.mem_cons.mpr (Or.inr hi)))

/-- A sum of ones is a natural number: real and nonnegative. -/
theorem sum_one_eq {ι : Type*} (s : Finset ι) : (∑ _i ∈ s, (1 : EReal)) = ((s.card : ℝ) : EReal) := by
  have : (∑ _i ∈ s, ((1 : ℝ) : EReal)) = (((∑ _i ∈ s, (1 : ℝ)) : ℝ) : EReal) := (coe_sum s fun _ => (1 : ℝ)).symm
  rw [show (1 : EReal) = ((1 : ℝ) : EReal) from rfl, this]
  simp

/-- Aggregating rows with real weights and then taking a real column combination is combining first and aggregating after. -/
theorem agg_dot {ε κ : Type*} [Fintype κ] (E : Finset ε) (a : ε → κ → EReal) (n : ε → EReal) (c : κ → EReal) (t : EReal)
    (W : κ → EReal) (ha : ∀ r k, IsReal (a r k)) (hn : ∀ r, IsReal (n r)) (hc : ∀ k, IsReal (c k)) (ht : IsReal t)
    (hW : ∀ k, IsReal (W k)) :
    ∑ k, (((0 : EReal) + ∑ r ∈ E, a r k * n r) + c k * t) * W k
      = ((0 : EReal) + ∑ r ∈ E, (∑ k, a r k * W k) * n r) + (∑ k, c k * W k) * t := by
  choose a' ha' using ha
  choose n' hn' using hn
  choose c' hc' using hc
  obtain ⟨t', rfl⟩ := ht
  choose W' hW' using hW
  have key : (∑ k, (((0 : ℝ) + ∑ r ∈ E, a' r k * n' r) + c' k * t') * W' k)
      = ((0 : ℝ) + ∑ r ∈ E, (∑ k, a' r k * W' k) * n' r) + (∑ k, c' k * W' k) * t' := by
    simp only [zero_add, add_mul, Finset.sum_add_distrib, Finset.sum_mul]
    congr 1
    · rw [Finset.sum_comm]
      refine Finset.sum_congr rfl fun r _ => Finset.sum_congr rfl fun k _ => ?_
      ring
    · refine Finset.sum_congr rfl fun k _ => ?_
      ring
  have e := congrArg (fun x : ℝ => (x : EReal)) key
  simp only [EReal.coe_add, EReal.coe_mul, coe_sum, EReal.coe_zero] at e
  simpa only [ha', hn', hc', hW'] using e

end Cert.Lib.AggLinear

end
-- ==== Proof.Spec.lean ====
/-
  The joint network's logits, and the law that joins its two spellings.

  For encoder rows enc[b, t, ·], decoder rows dec[b, u, ·], a weight matrix W[v, ·] and a bias b[v], the logit at
  (b, t, u, v) is the linear layer applied to the broadcast sum of the two rows:
      ∑ₖ (enc[b,t,k] + dec[b,u,k]) · W[v,k] + bias[v].
  A linear layer is affine, so it can be applied to the two rows apart and the results added:
      ∑ₖ enc[b,t,k] · W[v,k] + (∑ₖ dec[b,u,k] · W[v,k] + bias[v]).
  The two agree by distributing the product over the sum inside ∑ₖ and re-associating. On the extended reals the
  product does not distribute over a sum at the infinities, so the law is stated for real entries of enc, dec and W
  (the bias may be anything: only associativity of + touches it).
-/
import Idealize.ShloMosaic.PureOps.Ideal
import Idealize.ShloMosaic.Lib.ValueIdx
import proofs.«101334_j29317446763071_2_alg».proof.Proof.LibAggLinear

noncomputable section

open scoped BigOperators

namespace Cert.Joint

open Idealize.ShloMosaic Idealize.ShloMosaic.ValueIdx Cert.Lib.AggLinear

/-- Row (b, r) of a stack of 8 matrices of width 512, projected on row v of the weights. -/
def proj {n : Nat} (x : (⟨3, ![8, n, 512]⟩ : Shape).Idx → EReal) (W : (⟨2, ![1024, 512]⟩ : Shape).Idx → EReal)
    (b : Fin 8) (r : Fin n) (v : Fin 1024) : EReal :=
  ∑ k : Fin 512, x (ix3 b r k) * W (ix2 v k)

/-- The logit at (b, t, u, v), the linear layer applied to each row apart. -/
def logitAt (enc : (⟨3, ![8, 256, 512]⟩ : Shape).Idx → EReal) (dec : (⟨3, ![8, 64, 512]⟩ : Shape).Idx → EReal)
    (W : (⟨2, ![1024, 512]⟩ : Shape).Idx → EReal) (bias : (⟨1, ![1024]⟩ : Shape).Idx → EReal)
    (b : Fin 8) (t : Fin 256) (u : Fin 64) (v : Fin 1024) : EReal :=
  proj enc W b t v + (proj dec W b u v + bias (ix1 v))

/-- The whole array of logits. -/
def logits (enc : (⟨3, ![8, 256, 512]⟩ : Shape).Idx → EReal) (dec : (⟨3, ![8, 64, 512]⟩ : Shape).Idx → EReal)
    (W : (⟨2, ![1024, 512]⟩ : Shape).Idx → EReal) (bias : (⟨1, ![1024]⟩ : Shape).Idx → EReal) :
    (⟨4, ![8, 256, 64, 1024]⟩ : Shape).Idx → EReal :=
  fun j => logitAt enc dec W bias ⟨(j 0).val, (j 0).isLt⟩ ⟨(j 1).val, (j 1).isLt⟩ ⟨(j 2).val, (j 2).isLt⟩ ⟨(j 3).val, (j 3).isLt⟩

theorem logits_ix4 (enc : (⟨3, ![8, 256, 512]⟩ : Shape).Idx → EReal) (dec : (⟨3, ![8, 64, 512]⟩ : Shape).Idx → EReal)
    (W : (⟨2, ![1024, 512]⟩ : Shape).Idx → EReal) (bias : (⟨1, ![1024]⟩ : Shape).Idx → EReal)
    (b : Fin 8) (t : Fin 256) (u : Fin 64) (v : Fin 1024) :
    logits enc dec W bias (ix4 b t u v) = logitAt enc dec W bias b t u v := rfl

/-- A linear form of a sum of two real rows, plus a constant, is the sum of the two linear forms, the constant
    joined to the second: ∑ₖ (eₖ + dₖ)·wₖ + c = ∑ₖ eₖ·wₖ + (∑ₖ dₖ·wₖ + c). -/
theorem linear_of_sum {κ : Type*} [Fintype κ] (e d w : κ → EReal) (c : EReal)
    (he : ∀ k, IsReal (e k)) (hd : ∀ k, IsReal (d k)) (hw : ∀ k, IsReal (w k)) :
    (∑ k, (e k + d k) * w k) + c = (∑ k, e k * w k) + ((∑ k, d k * w k) + c) := by
  choose e' he' using he
  choose d' hd' using hd
  choose w' hw' using hw
  have key : (∑ k, (e' k + d' k) * w' k) = (∑ k, e' k * w' k) + (∑ k, d' k * w' k) := by
    simp only [add_mul, Finset.sum_add_distrib]
  have h := congrArg (fun x : ℝ => (x : EReal)) key
  simp only [EReal.coe_add, EReal.coe_mul, coe_sum] at h
  rw [← add_assoc]
  congr 1
  simpa only [he', hd', hw'] using h

/-- The logit spelt as the linear layer of the broadcast sum is the decomposed one, for real enc, dec and W. -/
theorem fused_eq_logitAt (enc : (⟨3, ![8, 256, 512]⟩ : Shape).Idx → EReal) (dec : (⟨3, ![8, 64, 512]⟩ : Shape).Idx → EReal)
    (W : (⟨2, ![1024, 512]⟩ : Shape).Idx → EReal) (bias : (⟨1, ![1024]⟩ : Shape).Idx → EReal)
    (henc : ∀ i, IsReal (enc i)) (hdec : ∀ i, IsReal (dec i)) (hW : ∀ i, IsReal (W i))
    (b : Fin 8) (t : Fin 256) (u : Fin 64) (v : Fin 1024) :
    (∑ k : Fin 512, (enc (ix3 b t k) + dec (ix3 b u k)) * W (ix2 v k)) + bias (ix1 v) = logitAt enc dec W bias b t u v :=
  linear_of_sum _ _ _ _ (fun _ => henc _) (fun _ => hdec _) (fun _ => hW _)

end Cert.Joint

end
-- ==== Proof.LibRowsDot.lean ====
/-
  A product of rows: for matrices `l` of M rows and `r` of N rows, both of width K, the contraction of the second
  axis of each — the dimension numbers ⟨[1], [1], [0], [0], [], []⟩ of `DotDims.transposedRhs` — read at the output
  index (a, b) is the sum over k < K of l[a, k] · r[b, k]. The contraction index of the dimension record is a
  one-coordinate tuple; the sum is re-indexed through that coordinate.
-/
import Idealize.ShloMosaic.PureOps.Ideal.Laws
import Idealize.ShloMosaic.Lib.ValueIdx

noncomputable section

namespace Cert.RowsDot

open Idealize.ShloMosaic Idealize.ShloMosaic.ValueIdx

/-- The left operand's row coordinate is the output's row. -/
theorem lhs_row {M K N : Nat} (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand's row coordinate is the output's column. -/
theorem rhs_row {M K N : Nat} (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The left operand's index at output (a, b) and contraction coordinate k is (a, k). -/
theorem lhs_at {M K N : Nat} (a : Fin M) (b : Fin N) (k : Fin K) :
    (DotDims.transposedRhs M K N).lhsIdx (ix2 a b) ((contrEquiv1 (DotDims.transposedRhs M K N) K rfl rfl).symm k) = ix2 a k := by
  have hk := contrEquiv1_symm_val (DotDims.transposedRhs M K N) K rfl rfl k
  funext x
  apply Fin.ext
  match x with
  | ⟨0, _⟩ => exact lhs_row _ _
  | ⟨1, _⟩ => exact ((DotDims.transposedRhs M K N).lhsIdx_val_of_single rfl _ _).trans hk

/-- The right operand's index there is (b, k). -/
theorem rhs_at {M K N : Nat} (a : Fin M) (b : Fin N) (k : Fin K) :
    (DotDims.transposedRhs M K N).rhsIdx (ix2 a b) ((contrEquiv1 (DotDims.transposedRhs M K N) K rfl rfl).symm k) = ix2 b k := by
  have hk := contrEquiv1_symm_val (DotDims.transposedRhs M K N) K rfl rfl k
  funext x
  apply Fin.ext
  match x with
  | ⟨0, _⟩ => exact rhs_row _ _
  | ⟨1, _⟩ => exact ((DotDims.transposedRhs M K N).rhsIdx_val_of_single rfl _ _).trans hk

/-- The contraction's sum at (a, b) is the sum over the shared width of the two rows' products. -/
theorem sum_at {M K N : Nat} (l : (⟨2, ![M, K]⟩ : Shape).Idx → EReal) (r : (⟨2, ![N, K]⟩ : Shape).Idx → EReal)
    (a : Fin M) (b : Fin N) :
    ∑ q : (DotDims.transposedRhs M K N).contr.Idx,
        l ((DotDims.transposedRhs M K N).lhsIdx (ix2 a b) q) * r ((DotDims.transposedRhs M K N).rhsIdx (ix2 a b) q)
      = ∑ k : Fin K, l (ix2 a k) * r (ix2 b k) := by
  rw [← Equiv.sum_comp (contrEquiv1 (DotDims.transposedRhs M K N) K rfl rfl).symm]
  refine Finset.sum_congr rfl fun k _ => ?_
  rw [lhs_at, rhs_at]

/-- A matrix unit's product into a zero accumulator, at the ideal values: that sum. -/
theorem matmul_zero_at {M K N : Nat} {φ₁ φ₂ : FTy} (l : FVec Ideal ⟨2, ![M, K]⟩ φ₁) (r : FVec Ideal ⟨2, ![N, K]⟩ φ₂)
    (a : Fin M) (b : Fin N) :
    FloatOps.matmul (DotDims.transposedRhs M K N) none l r (constant ⟨2, ![M, N]⟩ .f32 0x00000000#32) (ix2 a b)
      = ∑ k : Fin K, l (ix2 a k) * r (ix2 b k) :=
  (Ideal.matmul_constant_zero_apply _ none l r (ix2 a b)).trans (sum_at l r a b)

/-- The same for any dimension record that IS that one (a printed program names its own). -/
theorem matmul_zero_at_of_eq {M K N : Nat} {φ₁ φ₂ : FTy} (D : DotDims ⟨2, ![M, K]⟩ ⟨2, ![N, K]⟩ ⟨2, ![M, N]⟩)
    (hD : D = DotDims.transposedRhs M K N) (l : FVec Ideal ⟨2, ![M, K]⟩ φ₁) (r : FVec Ideal ⟨2, ![N, K]⟩ φ₂)
    (a : Fin M) (b : Fin N) :
    FloatOps.matmul D none l r (constant ⟨2, ![M, N]⟩ .f32 0x00000000#32) (ix2 a b)
      = ∑ k : Fin K, l (ix2 a k) * r (ix2 b k) := by
  subst hD
  exact matmul_zero_at l r a b

end Cert.RowsDot

end
-- ==== Proof.LibMidAxis.lean ====
/-
  Layout operations whose unit axis sits in the MIDDLE of the shape, read at an index.

  A matrix [a, b] recast as [a, 1, b] (a row sum or a product kept with a unit axis so that it can be spread along
  it) reads at (i, u, j) the matrix at (i, j); a [1, 1, a] block recast as the vector [a] reads at i the block at
  (0, 0, i); spreading [a, 1, b] along its unit axis to [a, c, b] reads at (i, r, j) the operand at (i, 0, j); and
  spreading [1, c, b] along its leading unit axis to [a, c, b] reads at (i, r, j) the operand at (0, r, j).
  Each is the general read-at-an-index lemma of the operation with both indices written by coordinates.
-/
import Idealize.ShloMosaic.Lib.Pipeline.Value
import Idealize.ShloMosaic.Lib.ValueIdx

noncomputable section

namespace Cert.Lib.MidAxis

open Idealize.ShloMosaic Idealize.ShloMosaic.ValueIdx

variable {α : Type}

/-- An [a, b] array cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A [1, 1, a] array cast to [a] reads, at i, the operand at (0, 0, i). -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add, Nat.mul_one, Nat.add_zero])

/-- An [a, 1, b] array spread to [a, c, b] reads, at (i, r, j), the operand at (i, 0, j). -/
theorem broadcastTo_a1b_acb_apply {a b c : ℕ} (x : (⟨3, ![a, 1, b]⟩ : Shape).Idx → α)
    (h : (⟨3, ![a, 1, b]⟩ : Shape).Broadcasts ⟨3, ![a, c, b]⟩) (i : Fin a) (r : Fin c) (j : Fin b) :
    broadcastTo ⟨3, ![a, c, b]⟩ x h (ix3 i r j) = x (ix3 i (0 : Fin 1) j) := by
  refine broadcastTo_apply x h (ix3 i r j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A [1, c, b] array spread to [a, c, b] reads, at (i, r, j), the operand at (0, r, j). -/
theorem broadcastTo_1cb_acb_apply {a b c : ℕ} (x : (⟨3, ![1, c, b]⟩ : Shape).Idx → α)
    (h : (⟨3, ![1, c, b]⟩ : Shape).Broadcasts ⟨3, ![a, c, b]⟩) (i : Fin a) (r : Fin c) (j : Fin b) :
    broadcastTo ⟨3, ![a, c, b]⟩ x h (ix3 i r j) = x (ix3 (0 : Fin 1) r j) := by
  refine broadcastTo_apply x h (ix3 i r j) (ix3 (0 : Fin 1) r j) fun ax => ?_
  match ax with
  | ⟨0, _⟩ => rfl
  | ⟨1, _⟩ =>
    show r.val = if c = 1 then 0 else r.val
    split
    · have := r.isLt; omega
    · rfl
  | ⟨2, _⟩ =>
    show j.val = if b = 1 then 0 else j.val
    split
    · have := j.isLt; omega
    · rfl

end Cert.Lib.MidAxis

end
-- ==== Proof.Payload.lean ====
/-
  The two values the kernel body stores, read at an index on the extended reals.

  The scratch value (stored when the second grid coordinate is 0): for the point's decoder block d[0, u, ·], the
  weights w[v, ·] and the bias block bb[0, 0, v], entry (u, v) is  ∑ₖ d[0,u,k] · w[v,k] + bb[0,0,v]  — a matrix
  product contracting the second axis of both operands into a zero accumulator, plus the bias row spread over the rows.
  A change of float format is the identity on the extended reals.

  One slice of the output (stored by each trip of the body's loop): for the point's encoder block e[0, t, ·], the
  weights, and eight rows s[r, ·] of the scratch, entry (0, t, r, v) is  ∑ₖ e[0,t,k] · w[v,k] + s[r,v]  — the
  product kept with a unit middle axis and spread along it, plus the scratch rows spread over the encoder rows.
-/
import proofs.«101334_j29317446763071_2_alg».proof.Proof.Gen.KernelIdeal.Skeleton
import proofs.«101334_j29317446763071_2_alg».proof.Proof.LibRowsDot
import proofs.«101334_j29317446763071_2_alg».proof.Proof.LibMidAxis
import Idealize.ShloMosaic.Lib.ValueLayout
import Idealize.ShloMosaic.Lib.Pipeline.Value

noncomputable section

open scoped BigOperators

namespace Cert.Joint.Payload

open Idealize.ShloMosaic Idealize.ShloMosaic.ValueIdx Cert.KernelIdeal Cert.KernelIdeal.Gen Cert.Lib.MidAxis

/-- The printed contraction record is the product of rows: both second axes contracted. -/
theorem dot_eq : dot_S64x512_S1024x512_S64x1024_1_1_0_0_n_n = DotDims.transposedRhs 64 512 1024 := rfl

/-- A block's rows times the weights' rows: entry (r, v) of the product into a zero accumulator. -/
theorem rows_times_weights (x : Vec Ideal S1x64x512 .f32) (w : Vec Ideal S1024x512 .f32) (r : Fin 64) (v : Fin 1024) :
    (matmul dot_S64x512_S1024x512_S64x1024_1_1_0_0_n_n none
        (truncf .bf16 (shapeCast S64x512 x shapeCasts_S1x64x512_S64x512) bitsLt_bf16_f32 : FVec Ideal S64x512 .bf16)
        (k0_pay1 (F := Ideal) w) (constant S64x1024 .f32 0x00000000#32) : FVec Ideal S64x1024 .f32) (ix2 r v)
      = ∑ k : Fin 512, x (ix3 (0 : Fin 1) r k) * w (ix2 v k) := by
  refine (Cert.RowsDot.matmul_zero_at_of_eq _ dot_eq _ _ r v).trans ?_
  refine Finset.sum_congr rfl fun k _ => ?_
  show (shapeCast S64x512 x shapeCasts_S1x64x512_S64x512) (ix2 r k) * w (ix2 v k) = _
  exact congrArg (· * w (ix2 v k)) (shapeCast_1ab_ab_apply x shapeCasts_S1x64x512_S64x512 r k)

/-- The scratch value at (u, v). -/
theorem scratch_at (w : Vec Ideal S1024x512 .f32) (d : Vec Ideal S1x64x512 .f32) (bb : Vec Ideal S1x1x1024 .f32)
    (u : Fin 64) (v : Fin 1024) :
    k0_pay2 (F := Ideal) w d bb (ix2 u v)
      = (∑ k : Fin 512, d (ix3 (0 : Fin 1) u k) * w (ix2 v k)) + bb (ix3 (0 : Fin 1) (0 : Fin 1) v) := by
  unfold k0_pay2
  refine (congrFun (shapeCast_self _ _) (ix2 u v)).trans ?_
  refine congrArg₂ (· + ·) (rows_times_weights d w u v) ?_
  refine (broadcastTo_1b_ab_apply _ _ u v).trans ?_
  refine (shapeCast_a_1a_apply _ _ (0 : Fin 1) v).trans ?_
  refine (shapeCast_11a_a_apply _ _ v).trans ?_
  exact congrFun (shapeCast_self _ _) _

/-- One output slice at (a, t, r, v). -/
theorem slice_at (w : Vec Ideal S1024x512 .f32) (e : Vec Ideal S1x64x512 .f32) (s : Vec Ideal S8x1024 .f32)
    (a : Fin 1) (t : Fin 64) (r : Fin 8) (v : Fin 1024) :
    k0_pay3 (F := Ideal) w e s (ix4 a t r v)
      = (∑ k : Fin 512, e (ix3 (0 : Fin 1) t k) * w (ix2 v k)) + s (ix2 r v) := by
  unfold k0_pay3
  refine (shapeCast_abc_1abc_apply _ _ a t r v).trans ?_
  refine congrArg₂ (· + ·) ?_ ?_
  · refine (broadcastTo_a1b_acb_apply _ _ t r v).trans ?_
    refine (shapeCast_ab_a1b_apply _ _ t (0 : Fin 1) v).trans ?_
    exact rows_times_weights e w t v
  · refine (broadcastTo_1cb_acb_apply _ _ t r v).trans ?_
    exact shapeCast_ab_1ab_apply _ _ (0 : Fin 1) r v

end Cert.Joint.Payload

end
-- ==== Proof.Pieces.lean ====
/-
  What one grid point leaves in the scratch and in its output block, as pure functions of the point's blocks.

  The body's stores are recorded as lists of pieces (a rectangle and the value stored through it, last first).
  The scratch has one piece, the whole buffer, whose value is the decoder projection plus the bias (Payload's
  scratch value). The output block [1, 64, 64, 1024] is written by the eight trips of the body's loop: trip k
  stores, through the rectangle of rows 8k … 8k+7 of the third axis, the encoder projection spread over those
  eight rows plus rows 8k … 8k+7 of the scratch. Every such piece is a block of ONE function of the output block's
  index (t, u, v ↦ ∑ₖ e[0,t,k]·w[v,k] + s[u,v]); so the block read back after the eight stores is that function,
  whichever trip covers the index.
-/
import proofs.«101334_j29317446763071_2_alg».proof.Proof.Gen.KernelIdeal.Frame
import proofs.«101334_j29317446763071_2_alg».proof.Proof.Payload

set_option maxRecDepth 16384

noncomputable section

open scoped BigOperators

namespace Cert.Joint.Pieces

open Idealize.ShloMosaic Idealize.ShloMosaic.TcCoe Idealize.ShloMosaic.ValueIdx Idealize.SL.Sem
open Cert.KernelIdeal Cert.KernelIdeal.Gen Cert.Joint.Payload

/-- Offsets all zero, however spelt. -/
theorem zeros2 : (![0, 0] : Fin 2 → Nat) = fun _ => 0 :=
  funext fun a => by match a with | ⟨0, _⟩ => rfl | ⟨1, _⟩ => rfl
theorem zeros3 : (![0, 0, 0] : Fin 3 → Nat) = fun _ => 0 :=
  funext fun a => by match a with | ⟨0, _⟩ => rfl | ⟨1, _⟩ => rfl | ⟨2, _⟩ => rfl

/-! ## The scratch -/

section Scratch
variable {F : FTy → Type} [FloatOps F]

/-- The scratch read back after the one store of the case that writes it: the stored value, of the blocks the
    stores' loads read whole. -/
theorem scratch_read (c : Dev nD) (arg3 : Memref sig .tc .vmem S1x64x512 .f32) (harg3 : arg3.IsWhole)
    (arg4 : Memref sig .tc .vmem S1024x512 .f32) (harg4 : arg4.IsWhole) (arg5 : Memref sig .tc .vmem S1x1x1024 .f32) (harg5 : arg5.IsWhole)
    (x1 : Vec F S1x64x512 .f32) (x2 : Vec F S1024x512 .f32) (x3 : Vec F S1x1x1024 .f32) (vw : View sig .tc .vmem S64x1024 .f32) :
    vw.read (Elt F) (vw.writes (Elt F) vw.junk (kernelRun0_A.sl.HS0_1 c arg3 harg3 arg4 harg4 arg5 harg5 x1 x2 x3))
      = k0_pay2 x2 x1 x3 := by
  rw [View.read_writes_junk_eq_canon]
  unfold kernelRun0_A.sl.HS0_1
  rw [View.canon_unit_zero zeros2]
  simp only [View.readAt_eq_ld, harg4.read_unread, harg3.read_unread, harg5.read_unread,
    View.ld_unit_zero (S := S1024x512) zeros2, View.ld_unit_zero (S := S1x64x512) zeros3,
    View.ld_unit_zero (S := S1x1x1024) zeros3]

/-- What the case that writes the scratch leaves in it. -/
theorem scratch_eq (c : Dev nD) (i : grid0.Coords) (arg2 : Memref sig .tc .vmem S1x64x512 .f32) (harg2 : arg2.IsWhole) (arg3 : Memref sig .tc .vmem S1x64x512 .f32) (harg3 : arg3.IsWhole) (arg4 : Memref sig .tc .vmem S1024x512 .f32) (harg4 : arg4.IsWhole) (arg5 : Memref sig .tc .vmem S1x1x1024 .f32) (harg5 : arg5.IsWhole) (arg6 : Memref sig .tc .vmem S1x64x64x1024 .f32) (harg6 : arg6.IsWhole) (arg7 : Memref sig .tc .vmem S64x1024 .f32) (harg7 : arg7.IsWhole) (hc0 : cond0_0 i)
    (x0 : Vec F S1x64x512 .f32) (x1 : Vec F S1x64x512 .f32) (x2 : Vec F S1024x512 .f32) (x3 : Vec F S1x1x1024 .f32) :
    sout0_A_0 c i arg2 harg2 arg3 harg3 arg4 harg4 arg5 harg5 arg6 harg6 arg7 harg7 hc0 x0 x1 x2 x3 = k0_pay2 x2 x1 x3 := by
  unfold sout0_A_0 kernelRun0_A
  dsimp only
  exact scratch_read c arg3 harg3 arg4 harg4 arg5 harg5 x1 x2 x3 VS0_0

end Scratch

/-! ## The output block -/

/-- The output block of one point from its encoder block, the weights and the scratch's contents. -/
def blockOf (e : Vec Ideal S1x64x512 .f32) (w : Vec Ideal S1024x512 .f32) (s : Vec Ideal S64x1024 .f32) :
    S1x64x64x1024.Idx → EReal :=
  fun y => (∑ k : Fin 512, e (ix3 (0 : Fin 1) (⟨(y 1).val, (y 1).isLt⟩ : Fin 64) k) * w (ix2 (⟨(y 3).val, (y 3).isLt⟩ : Fin 1024) k))
    + s (ix2 (⟨(y 2).val, (y 2).isLt⟩ : Fin 64) (⟨(y 3).val, (y 3).isLt⟩ : Fin 1024))

theorem blockOf_ix4 (e : Vec Ideal S1x64x512 .f32) (w : Vec Ideal S1024x512 .f32) (s : Vec Ideal S64x1024 .f32)
    (a : Fin 1) (t : Fin 64) (u : Fin 64) (v : Fin 1024) :
    blockOf e w s (ix4 a t u v) = (∑ k : Fin 512, e (ix3 (0 : Fin 1) t k) * w (ix2 v k)) + s (ix2 u v) := rfl

/-- Trip k's stored value at (a, t, r, v) of its slice is the block function at the place of the output block
    that the slice's rectangle puts it: row 8k + r of the third axis. -/
theorem trip_payload_at (w : Vec Ideal S1024x512 .f32) (e : Vec Ideal S1x64x512 .f32) (s : Vec Ideal S64x1024 .f32)
    (k : Fin k0_t1_loop.trips) (a : Fin 1) (t : Fin 64) (r : Fin 8) (v : Fin 1024) :
    k0_pay3 (F := Ideal) w e (View.ld s (Rect.unit (s := S64x1024) (k0_off1 k) S8x1024.size (k0_off1_inb k))) (ix4 a t r v)
      = blockOf e w s ((Rect.unit (s := S1x64x64x1024) (k0_off2 k) S1x64x8x1024.size (k0_off2_inb k)).emb (ix4 a t r v)) := by
  have o1 : k0_off2 k 1 = 0 := congrFun (k0_off2_eq k) 1
  have o2 : k0_off2 k 2 = 8 * k.val := congrFun (k0_off2_eq k) 2
  have o3 : k0_off2 k 3 = 0 := congrFun (k0_off2_eq k) 3
  have p0 : k0_off1 k 0 = 8 * k.val := congrFun (k0_off1_eq k) 0
  have p1 : k0_off1 k 1 = 0 := congrFun (k0_off1_eq k) 1
  refine (slice_at w e _ a t r v).trans ?_
  unfold blockOf
  refine congrArg₂ (· + ·) (Finset.sum_congr rfl fun k' _ => congrArg₂ (· * ·) (congrArg e ?_) (congrArg w ?_)) (congrArg s ?_)
  · funext d
    match d with
    | ⟨0, _⟩ => rfl
    | ⟨1, _⟩ => exact Fin.ext (show t.val = k0_off2 k 1 + 1 * t.val by rw [o1]; omega)
    | ⟨2, _⟩ => rfl
  · funext d
    match d with
    | ⟨0, _⟩ => exact Fin.ext (show v.val = k0_off2 k 3 + 1 * v.val by rw [o3]; omega)
    | ⟨1, _⟩ => rfl
  · funext d
    match d with
    | ⟨0, _⟩ => exact Fin.ext (show k0_off1 k 0 + 1 * r.val = k0_off2 k 2 + 1 * r.val by rw [p0, o2])
    | ⟨1, _⟩ => exact Fin.ext (show k0_off1 k 1 + 1 * v.val = k0_off2 k 3 + 1 * v.val by rw [p1, o3])

section Trips
variable (𝒱 : Variants) (bd : Option 𝒱.V) (c : Dev nD) (i : grid0.Coords) (arg2 : Memref sig .tc .vmem S1x64x512 .f32) (harg2 : arg2.IsWhole) (arg3 : Memref sig .tc .vmem S1x64x512 .f32) (harg3 : arg3.IsWhole) (arg4 : Memref sig .tc .vmem S1024x512 .f32) (harg4 : arg4.IsWhole) (arg5 : Memref sig .tc .vmem S1x1x1024 .f32) (harg5 : arg5.IsWhole) (arg6 : Memref sig .tc .vmem S1x64x64x1024 .f32) (harg6 : arg6.IsWhole) (arg7 : Memref sig .tc .vmem S64x1024 .f32) (harg7 : arg7.IsWhole)
  (v0 : Vec Ideal S1024x512 .f32) (v5 : Vec Ideal S1x64x512 .f32) (X : BufTy.Contents (Elt Ideal) arg7.view.ty)

/-- One trip stores one piece: its slice's rectangle and the slice value of the scratch rows it loaded. -/
theorem trip_list (k : Fin k0_t1_loop.trips) :
    tripL_k0_t1 (F := Ideal) 𝒱 c bd i arg2 harg2 arg3 harg3 arg4 harg4 arg5 harg5 arg6 harg6 arg7 harg7 v0 v5 X k
      = [⟨Rect.unit (s := S1x64x64x1024) (k0_off2 k) S1x64x8x1024.size (k0_off2_inb k),
          k0_pay3 v0 v5 (View.readAt (Elt Ideal) arg7.view (Rect.unit (s := S64x1024) (k0_off1 k) S8x1024.size (k0_off1_inb k)).toLoadRect X)⟩] := by
  show (trip_k0_t1 (F := Ideal) 𝒱 c bd i arg2 harg2 arg3 harg3 arg4 harg4 arg5 harg5 arg6 harg6 arg7 harg7 v0 v5 X k).1 = _
  unfold trip_k0_t1
  rfl

/-- So every piece of a trip is a block of the block function. -/
theorem trip_pieces (k : Fin k0_t1_loop.trips) :
    ∀ p ∈ tripL_k0_t1 (F := Ideal) 𝒱 c bd i arg2 harg2 arg3 harg3 arg4 harg4 arg5 harg5 arg6 harg6 arg7 harg7 v0 v5 X k,
      ∀ x : p.1.shape.Idx, p.2 x = blockOf v5 v0 (arg7.view.read (Elt Ideal) X) (p.1.emb x) := by
  intro p hp
  rw [trip_list, List.mem_singleton] at hp
  subst hp
  intro x
  obtain ⟨a, t, r, v, rfl⟩ : ∃ (a : Fin 1) (t : Fin 64) (r : Fin 8) (v : Fin 1024), x = ix4 a t r v :=
    ⟨x 0, x 1, x 2, x 3, eq_ix4 x⟩
  exact trip_payload_at v0 v5 (arg7.view.read (Elt Ideal) X) k a t r v

/-- … and so is every piece of the trips before any trip. -/
theorem pb_pieces (n : ℕ) :
    ∀ p ∈ pb_k0_t1 (F := Ideal) 𝒱 c bd i arg2 harg2 arg3 harg3 arg4 harg4 arg5 harg5 arg6 harg6 arg7 harg7 v0 v5 X n,
      ∀ x : p.1.shape.Idx, p.2 x = blockOf v5 v0 (arg7.view.read (Elt Ideal) X) (p.1.emb x) := by
  induction n with
  | zero => intro p hp; exact absurd hp List.not_mem_nil
  | succ n ih =>
    intro p hp
    rw [pb_k0_t1.eq_2] at hp
    unfold pb_k0_t1Step at hp
    split at hp
    · rcases List.mem_append.mp hp with h | h
      · exact trip_pieces 𝒱 bd c i arg2 harg2 arg3 harg3 arg4 harg4 arg5 harg5 arg6 harg6 arg7 harg7 v0 v5 X _ p h
      · exact ih p h
    · exact ih p hp

end Trips

/-- What the case that finds the scratch as the point before left it leaves in the output block. -/
theorem outB_eq (c : Dev nD) (i : grid0.Coords) (arg2 : Memref sig .tc .vmem S1x64x512 .f32) (harg2 : arg2.IsWhole) (arg3 : Memref sig .tc .vmem S1x64x512 .f32) (harg3 : arg3.IsWhole) (arg4 : Memref sig .tc .vmem S1024x512 .f32) (harg4 : arg4.IsWhole) (arg5 : Memref sig .tc .vmem S1x1x1024 .f32) (harg5 : arg5.IsWhole) (arg6 : Memref sig .tc .vmem S1x64x64x1024 .f32) (harg6 : arg6.IsWhole) (arg7 : Memref sig .tc .vmem S64x1024 .f32) (harg7 : arg7.IsWhole) (hc0 : ¬cond0_0 i)
    (x0 : Vec Ideal S1x64x512 .f32) (x1 : Vec Ideal S1x64x512 .f32) (x2 : Vec Ideal S1024x512 .f32) (x3 : Vec Ideal S1x1x1024 .f32) (xs0 : Vec Ideal S64x1024 .f32) :
    out0_B_4 (F := Ideal) c i arg2 harg2 arg3 harg3 arg4 harg4 arg5 harg5 arg6 harg6 arg7 harg7 hc0 x0 x1 x2 x3 xs0 = blockOf x0 x2 xs0 := by
  funext y
  unfold out0_B_4
  rw [View.read_writes_junk_eq_canon]
  refine View.canon_apply_of_pieces (blockOf x0 x2 xs0) _ ?_ y (cover0_B_4 c i arg2 harg2 arg3 harg3 arg4 harg4 arg5 harg5 arg6 harg6 arg7 harg7 hc0 x0 x1 x2 x3 xs0 y)
  unfold kernelRun0_B
  dsimp only
  have e2 : View.readAt (Elt Ideal) arg4.view (Rect.unit (s := S1024x512) ![0, 0] S1024x512.size inb_S1024x512_S1024x512_0_0).toLoadRect (harg4.unread x2) = x2 := by
    rw [View.readAt_eq_ld, harg4.read_unread, View.ld_unit_zero (S := S1024x512) zeros2]
  have e0 : View.readAt (Elt Ideal) arg2.view (Rect.unit (s := S1x64x512) ![0, 0, 0] S1x64x512.size inb_S1x64x512_S1x64x512_0_0_0).toLoadRect (harg2.unread x0) = x0 := by
    rw [View.readAt_eq_ld, harg2.read_unread, View.ld_unit_zero (S := S1x64x512) zeros3]
  have h := pb_pieces Variants.none none c i arg2 harg2 arg3 harg3 arg4 harg4 arg5 harg5 arg6 harg6 arg7 harg7 x2 x0 (harg7.unread xs0) (Scf.trips (0#32) (Scalar.addi 0#32 8#32) 1#32)
  rw [harg7.read_unread] at h
  rw [e2, e0]
  exact h

/-- What the case that writes the scratch leaves in the output block: the same function, of the scratch it has
    just written. -/
theorem outA_eq (c : Dev nD) (i : grid0.Coords) (arg2 : Memref sig .tc .vmem S1x64x512 .f32) (harg2 : arg2.IsWhole) (arg3 : Memref sig .tc .vmem S1x64x512 .f32) (harg3 : arg3.IsWhole) (arg4 : Memref sig .tc .vmem S1024x512 .f32) (harg4 : arg4.IsWhole) (arg5 : Memref sig .tc .vmem S1x1x1024 .f32) (harg5 : arg5.IsWhole) (arg6 : Memref sig .tc .vmem S1x64x64x1024 .f32) (harg6 : arg6.IsWhole) (arg7 : Memref sig .tc .vmem S64x1024 .f32) (harg7 : arg7.IsWhole) (hc0 : cond0_0 i)
    (x0 : Vec Ideal S1x64x512 .f32) (x1 : Vec Ideal S1x64x512 .f32) (x2 : Vec Ideal S1024x512 .f32) (x3 : Vec Ideal S1x1x1024 .f32) :
    out0_A_4 (F := Ideal) c i arg2 harg2 arg3 harg3 arg4 harg4 arg5 harg5 arg6 harg6 arg7 harg7 hc0 x0 x1 x2 x3 = blockOf x0 x2 (k0_pay2 x2 x1 x3) := by
  funext y
  unfold out0_A_4
  rw [View.read_writes_junk_eq_canon]
  refine View.canon_apply_of_pieces (blockOf x0 x2 (k0_pay2 x2 x1 x3)) _ ?_ y (cover0_A_4 c i arg2 harg2 arg3 harg3 arg4 harg4 arg5 harg5 arg6 harg6 arg7 harg7 hc0 x0 x1 x2 x3 y)
  unfold kernelRun0_A
  dsimp only
  have e2 : View.readAt (Elt Ideal) arg4.view (Rect.unit (s := S1024x512) ![0, 0] S1024x512.size inb_S1024x512_S1024x512_0_0).toLoadRect (harg4.unread x2) = x2 := by
    rw [View.readAt_eq_ld, harg4.read_unread, View.ld_unit_zero (S := S1024x512) zeros2]
  have e0 : View.readAt (Elt Ideal) arg2.view (Rect.unit (s := S1x64x512) ![0, 0, 0] S1x64x512.size inb_S1x64x512_S1x64x512_0_0_0).toLoadRect (harg2.unread x0) = x0 := by
    rw [View.readAt_eq_ld, harg2.read_unread, View.ld_unit_zero (S := S1x64x512) zeros3]
  have h := pb_pieces Variants.none none c i arg2 harg2 arg3 harg3 arg4 harg4 arg5 harg5 arg6 harg6 arg7 harg7 x2 x0
    (arg7.view.writes (Elt Ideal) arg7.view.junk (kernelRun0_A.sl.HS0_1 c arg3 harg3 arg4 harg4 arg5 harg5 x1 x2 x3))
    (Scf.trips (0#32) (Scalar.addi 0#32 8#32) 1#32)
  rw [scratch_read c arg3 harg3 arg4 harg4 arg5 harg5 x1 x2 x3 arg7.view] at h
  rw [e2, e0]
  exact h

end Cert.Joint.Pieces

end
-- ==== Proof.Blocks.lean ====
/-
  The grid's blocks as rows of the arrays.

  The grid has 8 × 4 points; point t has batch b = t / 4 and tile ti = t % 4. Its encoder block is rows
  64·ti … 64·ti + 63 of batch b of the encoder array, its decoder block all 64 rows of batch b of the decoder array,
  its weight block the whole weight matrix, its bias block the whole bias — which the program recasts from [1024] to
  [1, 1, 1024] before the call, so entry (0, 0, v) of the block is entry v of the bias — and its output block is rows
  64·ti … 64·ti + 63 of batch b of the result. The index maps are decided once, over the 32 points.
-/
import proofs.«101334_j29317446763071_2_alg».proof.Proof.Gen.KernelIdeal.Value
import Idealize.ShloMosaic.Lib.ValueIdx
import Idealize.ShloMosaic.Lib.StableHlo.Run

set_option maxRecDepth 16384

noncomputable section

namespace Cert.Joint.Blocks

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- Each window's block index at point t, by the point's batch t / 4 and tile t % 4. -/
theorem idx_facts : ∀ t : Fin cfg0.N,
    win0_0.index t (0 : Fin 3) = t.val / 4 ∧ win0_0.index t (1 : Fin 3) = t.val % 4 ∧ win0_0.index t (2 : Fin 3) = 0
  ∧ win0_1.index t (0 : Fin 3) = t.val / 4 ∧ win0_1.index t (1 : Fin 3) = 0 ∧ win0_1.index t (2 : Fin 3) = 0
  ∧ win0_2.index t (0 : Fin 2) = 0 ∧ win0_2.index t (1 : Fin 2) = 0
  ∧ win0_3.index t (0 : Fin 3) = 0 ∧ win0_3.index t (1 : Fin 3) = 0 ∧ win0_3.index t (2 : Fin 3) = 0
  ∧ win0_4.index t (0 : Fin 4) = t.val / 4 ∧ win0_4.index t (1 : Fin 4) = t.val % 4 ∧ win0_4.index t (2 : Fin 4) = 0 ∧ win0_4.index t (3 : Fin 4) = 0 :=
  (by decide +kernel : ∀ t : Fin grid0.N, _)

/-- The encoder block at (a, r, k) is the encoder array at (t / 4, 64·(t % 4) + r, k). -/
theorem enc_blk (c : Dev nD) (t : Fin cfg0.N) (a : Fin 1) (r : Fin 64) (k : Fin 512) (b : Fin 8) (row : Fin 256)
    (hb : b.val = t.val / 4) (hrow : row.val = 64 * (t.val % 4) + r.val) :
    iblk m c 0 t (ix3 a r k) = V m c main_arg0 (ix3 b row k) := by
  obtain ⟨e0, e1, e2, -⟩ := idx_facts t
  show V m c main_arg0 (((cfg0.win 0).blk t).view.emb (ix3 a r k)) = V m c main_arg0 (ix3 b row k)
  refine congrArg (V m c main_arg0) (funext fun d => Fin.ext ?_)
  match d with
  | ⟨0, _⟩ => show win0_0.index t (0 : Fin 3) * 1 + 1 * a.val = b.val; have := a.isLt; omega
  | ⟨1, _⟩ => show win0_0.index t (1 : Fin 3) * 64 + 1 * r.val = row.val; omega
  | ⟨2, _⟩ => show win0_0.index t (2 : Fin 3) * 512 + 1 * k.val = k.val; omega

/-- The decoder block at (a, u, k) is the decoder array at (t / 4, u, k). -/
theorem dec_blk (c : Dev nD) (t : Fin cfg0.N) (a : Fin 1) (u : Fin 64) (k : Fin 512) (b : Fin 8)
    (hb : b.val = t.val / 4) :
    iblk m c 1 t (ix3 a u k) = V m c main_arg1 (ix3 b u k) := by
  obtain ⟨-, -, -, e0, e1, e2, -⟩ := idx_facts t
  show V m c main_arg1 (((cfg0.win 1).blk t).view.emb (ix3 a u k)) = V m c main_arg1 (ix3 b u k)
  refine congrArg (V m c main_arg1) (funext fun d => Fin.ext ?_)
  match d with
  | ⟨0, _⟩ => show win0_1.index t (0 : Fin 3) * 1 + 1 * a.val = b.val; have := a.isLt; omega
  | ⟨1, _⟩ => show win0_1.index t (1 : Fin 3) * 64 + 1 * u.val = u.val; omega
  | ⟨2, _⟩ => show win0_1.index t (2 : Fin 3) * 512 + 1 * k.val = k.val; omega

/-- The weight block is the weight matrix. -/
theorem w_blk (c : Dev nD) (t : Fin cfg0.N) (v : Fin 1024) (k : Fin 512) :
    iblk m c 2 t (ix2 v k) = V m c main_arg2 (ix2 v k) := by
  obtain ⟨-, -, -, -, -, -, e0, e1, -⟩ := idx_facts t
  show V m c main_arg2 (((cfg0.win 2).blk t).view.emb (ix2 v k)) = V m c main_arg2 (ix2 v k)
  refine congrArg (V m c main_arg2) (funext fun d => Fin.ext ?_)
  match d with
  | ⟨0, _⟩ => show win0_2.index t (0 : Fin 2) * 1024 + 1 * v.val = v.val; omega
  | ⟨1, _⟩ => show win0_2.index t (1 : Fin 2) * 512 + 1 * k.val = k.val; omega

/-- The array the bias window stages is the bias recast to [1, 1, 1024]. -/
theorem bias_host (c : Dev nD) :
    (V m c main_v0 : S1x1x1024.Idx → EReal)
      = shapeCast S1x1x1024 (m ((c : Thread nD τ).loc main_arg3)) shapeCasts_S1024_S1x1x1024 := by
  dsimp only [Gen.V, Gen.hostOps0]
  after_results
  rfl

/-- The bias block at (a, a', v) is the bias at v. -/
theorem bias_blk (c : Dev nD) (t : Fin cfg0.N) (a a' : Fin 1) (v : Fin 1024) :
    iblk m c 3 t (ix3 a a' v) = m ((c : Thread nD τ).loc main_arg3) (ix1 v) := by
  obtain ⟨-, -, -, -, -, -, -, -, e0, e1, e2, -⟩ := idx_facts t
  have ha : a.val = 0 := by omega
  have ha' : a'.val = 0 := by omega
  have h1 : iblk m c 3 t (ix3 a a' v) = V m c main_v0 (ix3 a a' v) := by
    show V m c main_v0 (((cfg0.win 3).blk t).view.emb (ix3 a a' v)) = V m c main_v0 (ix3 a a' v)
    refine congrArg (V m c main_v0) (funext fun d => Fin.ext ?_)
    match d with
    | ⟨0, _⟩ => show win0_3.index t (0 : Fin 3) * 1 + 1 * a.val = a.val; omega
    | ⟨1, _⟩ => show win0_3.index t (1 : Fin 3) * 1 + 1 * a'.val = a'.val; omega
    | ⟨2, _⟩ => show win0_3.index t (2 : Fin 3) * 1024 + 1 * v.val = v.val; omega
  refine h1.trans ?_
  refine (congrFun (bias_host m c) (ix3 a a' v)).trans ?_
  refine shapeCast_apply _ _ _ (ix1 v) ?_
  rw [Shape.rowMajor_val_three, Shape.rowMajor_val_one]
  show v.val = (a.val * 1 + a'.val) * 1024 + v.val
  rw [ha, ha']
  omega

end Cert.Joint.Blocks

end
-- ==== Proof.KernelValue.lean ====
/-
  The kernel's result array, as one function of its arguments.

  After the point of batch b and tile 0 the scratch holds the decoder projection of batch b plus the bias; the three
  later tiles of the batch carry it unchanged, so after ANY point t the scratch holds that value for batch t / 4
  (induction over the points: a point with t % 4 ≠ 0 finds what point t − 1 left, and (t − 1) / 4 = t / 4).
  Every point's output block is then the encoder projection of its rows spread over the decoder rows plus that
  scratch: rows 64·(t % 4) … of batch t / 4 of the array of logits. The 32 blocks tile the result, so the result
  array is the array of logits.
-/
import proofs.«101334_j29317446763071_2_alg».proof.Proof.Gen.KernelIdeal.Value
import proofs.«101334_j29317446763071_2_alg».proof.Proof.Spec
import proofs.«101334_j29317446763071_2_alg».proof.Proof.Pieces
import proofs.«101334_j29317446763071_2_alg».proof.Proof.Blocks

set_option maxRecDepth 16384

noncomputable section

open scoped BigOperators

namespace Cert.Joint.KernelValue

open Idealize.ShloMosaic Idealize.ShloMosaic.TcCoe Idealize.ShloMosaic.ValueIdx Idealize.SL.Sem
open Idealize.ShloMosaic.Pipeline (Dat)
open Cert.KernelIdeal Cert.KernelIdeal.Gen Cert.Joint Cert.Joint.Payload Cert.Joint.Pieces Cert.Joint.Blocks

variable (m : (ℓ : Loc nD τ sig) → Buf (Elt Ideal) ℓ) (ρ : Dev nD → PrngReg)

/-- The arrays as the call finds them. -/
abbrev encArr (c : Dev nD) : S8x256x512.Idx → EReal := V m c main_arg0
abbrev decArr (c : Dev nD) : S8x64x512.Idx → EReal := V m c main_arg1
abbrev wArr (c : Dev nD) : S1024x512.Idx → EReal := V m c main_arg2
abbrev biasArr (c : Dev nD) : S1024.Idx → EReal := m ((c : Thread nD τ).loc main_arg3)

/-- After point t the scratch holds, at (u, v), the decoder projection of batch t / 4 plus the bias (by induction on
    the point's position: a point with t % 4 ≠ 0 finds what the point before left, of the same batch). -/
theorem scratch_after_pos (c : Dev nD) : ∀ (n : ℕ) (t : Fin cfg0.N), t.val = n → ∀ (b : Fin 8), b.val = t.val / 4 →
    ∀ (u : Fin 64) (v : Fin 1024),
      (outsAt0 m c t.val t.isLt).2 (ix2 u v) = proj (decArr m c) (wArr m c) b u v + biasArr m c (ix1 v) := by
  intro n
  induction n using Nat.strong_induction_on with
  | _ n ih =>
    intro t ht b hb u v
    have hN : t.val < 32 := lt_of_lt_of_eq t.isLt (show cfg0.N = 32 from N_0)
    by_cases h0 : t.val % 4 = 0
    · have e := outsAt0_A m c t h0
      rw [e]
      dsimp only
      refine (congrFun (scratch_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)) (ix2 u v)).trans ?_
      refine (scratch_at (iblk m c 2 t) (iblk m c 1 t) (iblk m c 3 t) u v).trans ?_
      unfold proj
      exact congrArg₂ (· + ·)
        (Finset.sum_congr rfl fun k _ => congrArg₂ (· * ·) (dec_blk m c t 0 u k b hb) (w_blk m c t v k))
        (bias_blk m c t 0 0 v)
    · have e := outsAt0_B m c t h0
      rw [e]
      dsimp only
      unfold sout0_B_0
      have hlt : t.val - 1 < cfg0.N := Nat.lt_of_le_of_lt (Nat.sub_le _ _) t.isLt
      exact ih (t.val - 1) (by omega) ⟨t.val - 1, hlt⟩ rfl b (by show b.val = (t.val - 1) / 4; omega) u v

theorem scratch_after (c : Dev nD) (t : Fin cfg0.N) (b : Fin 8) (hb : b.val = t.val / 4) (u : Fin 64) (v : Fin 1024) :
    (outsAt0 m c t.val t.isLt).2 (ix2 u v) = proj (decArr m c) (wArr m c) b u v + biasArr m c (ix1 v) :=
  scratch_after_pos m c t.val t rfl b hb u v

/-- After point t its output block is the block function of its encoder block, the weights and the scratch. -/
theorem block_after (c : Dev nD) (t : Fin cfg0.N) :
    (outsAt0 m c t.val t.isLt).1 = blockOf (iblk m c 0 t) (iblk m c 2 t) (outsAt0 m c t.val t.isLt).2 := by
  by_cases h0 : t.val % 4 = 0
  · have e := outsAt0_A m c t h0
    rw [e]
    dsimp only
    refine (outA_eq c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)).trans ?_
    exact congrArg (blockOf (iblk m c 0 t) (iblk m c 2 t))
      (scratch_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)).symm
  · have e := outsAt0_B m c t h0
    rw [e]
    dsimp only
    exact outB_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) _

/-- The output block of point t at (a, r, u, v) is the logit of batch t / 4, encoder row 64·(t % 4) + r,
    decoder row u and vocabulary entry v. -/
theorem block_at (c : Dev nD) (t : Fin cfg0.N) (a : Fin 1) (r : Fin 64) (u : Fin 64) (v : Fin 1024) (b : Fin 8) (row : Fin 256)
    (hb : b.val = t.val / 4) (hrow : row.val = 64 * (t.val % 4) + r.val) :
    (outsAt0 m c t.val t.isLt).1 (ix4 a r u v) = logitAt (encArr m c) (decArr m c) (wArr m c) (biasArr m c) b row u v := by
  refine (congrFun (block_after m c t) (ix4 a r u v)).trans ?_
  refine (blockOf_ix4 _ _ _ a r u v).trans ?_
  unfold logitAt proj
  exact congrArg₂ (· + ·)
    (Finset.sum_congr rfl fun k _ => congrArg₂ (· * ·) (enc_blk m c t 0 r k b row hb hrow) (w_blk m c t v k))
    (scratch_after m c t b hb u v)

/-- The output block of point t is block t of the array of logits. -/
theorem block_is_logits (c : Dev nD) (t : Fin cfg0.N) (y : S1x64x64x1024.Idx) :
    (outsAt0 m c t.val t.isLt).1 y
      = logits (encArr m c) (decArr m c) (wArr m c) (biasArr m c) (((cfg0.win 4).blk t).view.emb y) := by
  obtain ⟨a, r, u, v, rfl⟩ : ∃ (a : Fin 1) (r : Fin 64) (u : Fin 64) (v : Fin 1024), y = ix4 a r u v :=
    ⟨y 0, y 1, y 2, y 3, eq_ix4 y⟩
  obtain ⟨-, -, -, -, -, -, -, -, -, -, -, e0, e1, e2, e3⟩ := idx_facts t
  have hN : t.val < 32 := lt_of_lt_of_eq t.isLt (show cfg0.N = 32 from N_0)
  have ha : a.val = 0 := by omega
  refine (block_at m c t a r u v ⟨t.val / 4, by omega⟩ ⟨64 * (t.val % 4) + r.val, by omega⟩ rfl rfl).trans ?_
  unfold logits
  congr 1
  · exact Fin.ext (show t.val / 4 = win0_4.index t (0 : Fin 4) * 1 + 1 * a.val by omega)
  · exact Fin.ext (show 64 * (t.val % 4) + r.val = win0_4.index t (1 : Fin 4) * 64 + 1 * r.val by omega)
  · exact Fin.ext (show u.val = win0_4.index t (2 : Fin 4) * 64 + 1 * u.val by omega)
  · exact Fin.ext (show v.val = win0_4.index t (3 : Fin 4) * 1024 + 1 * v.val by omega)

/-- What point t writes back is block t of the array of logits. -/
theorem flushed_eq (c : Dev nD) (t : Fin cfg0.N) :
    (dats m 0 c).flushed 4 t
      = ((cfg0.win 4).blk t).view.read (Elt Ideal) (logits (encArr m c) (decArr m c) (wArr m c) (biasArr m c)) := by
  rw [Cert.KernelIdeal.Value.flushed4]
  funext j
  exact block_is_logits m c t j

/-- An index of the result is in point t's block iff each coordinate is in the block's range on its axis. -/
theorem mem_blk (t : Fin cfg0.N) (i : S8x256x64x1024.Idx) :
    i ∈ ((cfg0.win 4).blk t).view.set ↔ ∀ a : Fin 4, win0_4.index t a * S1x64x64x1024.size a ≤ (i a).val
      ∧ (i a).val < win0_4.index t a * S1x64x64x1024.size a + S1x64x64x1024.size a := by
  show i ∈ ((View.whole main_v1).slice (win0_4.rect t)).set ↔ _
  rw [View.set_slice_whole, Rect.mem_set_unit]
  exact Iff.rfl

/-- Every index of the result is in the block of the point of its batch and of its encoder row's tile. -/
theorem cover (i : S8x256x64x1024.Idx) :
    ∃ t : Fin cfg0.N, (cfg0.win 4).flush t = true ∧ i ∈ ((cfg0.win 4).blk t).view.set := by
  have h0 : (i 0).val < 8 := (i 0).isLt
  have h1 : (i 1).val < 256 := (i 1).isLt
  have h2 : (i 2).val < 64 := (i 2).isLt
  have h3 : (i 3).val < 1024 := (i 3).isLt
  have hlt : 4 * (i 0).val + (i 1).val / 64 < cfg0.N :=
    lt_of_lt_of_eq (by omega : 4 * (i 0).val + (i 1).val / 64 < 32) (show (32 : ℕ) = cfg0.N from N_0.symm)
  refine ⟨⟨4 * (i 0).val + (i 1).val / 64, hlt⟩, flush0_4 _, ?_⟩
  rw [mem_blk]
  obtain ⟨-, -, -, -, -, -, -, -, -, -, -, e0, e1, e2, e3⟩ := idx_facts ⟨4 * (i 0).val + (i 1).val / 64, hlt⟩
  have ev : (⟨4 * (i 0).val + (i 1).val / 64, hlt⟩ : Fin cfg0.N).val = 4 * (i 0).val + (i 1).val / 64 := rfl
  rw [ev] at e0 e1
  intro a
  match a with
  | ⟨0, _⟩ =>
    show win0_4.index _ (0 : Fin 4) * 1 ≤ (i 0).val ∧ (i 0).val < win0_4.index _ (0 : Fin 4) * 1 + 1
    omega
  | ⟨1, _⟩ =>
    show win0_4.index _ (1 : Fin 4) * 64 ≤ (i 1).val ∧ (i 1).val < win0_4.index _ (1 : Fin 4) * 64 + 64
    omega
  | ⟨2, _⟩ =>
    show win0_4.index _ (2 : Fin 4) * 64 ≤ (i 2).val ∧ (i 2).val < win0_4.index _ (2 : Fin 4) * 64 + 64
    omega
  | ⟨3, _⟩ =>
    show win0_4.index _ (3 : Fin 4) * 1024 ≤ (i 3).val ∧ (i 3).val < win0_4.index _ (3 : Fin 4) * 1024 + 1024
    omega

/-- The result array after the run is the array of logits of the arguments. -/
theorem final (c : Dev nD) :
    (dats m 0 c).arrAt 4 cfg0.N
      = logits (m ((c : Thread nD τ).loc main_arg0)) (m ((c : Thread nD τ).loc main_arg1))
          (m ((c : Thread nD τ).loc main_arg2)) (m ((c : Thread nD τ).loc main_arg3)) := by
  have h := (dats m 0 c).arrAt_eq_of_cover 4 (logits (encArr m c) (decArr m c) (wArr m c) (biasArr m c))
    (fun t _ => flushed_eq m c t) cover
  rw [h]
  unfold encArr decArr wArr biasArr
  rw [V_main_arg0, V_main_arg1, V_main_arg2]

/-- The kernel's run: it ends, faultless, with the result at the array of logits and the arguments unchanged. -/
theorem run : θ_run defs (onTc (τ := τ) (main (F := Ideal))) ⟨m, fun _ => 0, ρ⟩ fun r => ∀ c : Dev nD,
      r.2.mem ((c : Thread nD τ).loc main_v1)
        = logits (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.Joint.KernelValue

end
-- ==== Proof.RefValue.lean ====
/-
  The reference's result is the array of logits.

  The reference spreads each encoder row over the decoder rows and each decoder row over the encoder rows, adds them,
  contracts the last axis with the weights' rows and adds the bias spread everywhere: at (b, t, u, v) it is
  ∑ₖ (enc[b,t,k] + dec[b,u,k]) · W[v,k] + bias[v]. For real enc, dec and W that is the decomposed logit.
-/
import proofs.«101334_j29317446763071_2_alg».proof.Proof.Gen.ReferenceIdeal.Read
import proofs.«101334_j29317446763071_2_alg».proof.Proof.Spec

noncomputable section

open scoped BigOperators

namespace Cert.Joint.RefValue

open Idealize.ShloMosaic Idealize.ShloMosaic.ValueIdx Cert.Lib.AggLinear
open Cert.ReferenceIdeal Cert.ReferenceIdeal.Read Cert.Joint

/-- The reference's result at (b, t, u, v). -/
theorem ref_at (x0 : (⟨S8x256x512, .f32⟩ : BufTy).Contents (Elt Ideal)) (x1 : (⟨S8x64x512, .f32⟩ : BufTy).Contents (Elt Ideal))
    (x2 : (⟨S1024x512, .f32⟩ : BufTy).Contents (Elt Ideal)) (x3 : (⟨S1024, .f32⟩ : BufTy).Contents (Elt Ideal))
    (b : Fin 8) (t : Fin 256) (u : Fin 64) (v : Fin 1024) :
    val_main_v8 (F := Ideal) x0 x1 x2 x3 (ix4 b t u v)
      = (∑ k : Fin 512, (x0 (ix3 b t k) + x1 (ix3 b u k)) * x2 (ix2 v k)) + x3 (ix1 v) := by
  rw [val_main_v8_apply, val_main_v5_apply, val_main_v7_apply, val_main_v6_apply]
  refine congrArg₂ (· + ·) (Finset.sum_congr rfl fun k _ => ?_) ?_
  · rw [val_main_v4_apply, val_main_v2_apply, val_main_v0_apply, val_main_v3_apply, val_main_v1_apply]
    refine congrArg₂ (· * ·) (congrArg₂ (· + ·) (congrArg x0 ?_) (congrArg x1 ?_)) (congrArg x2 ?_)
    · exact funext fun a => by match a with | ⟨0, _⟩ => rfl | ⟨1, _⟩ => rfl | ⟨2, _⟩ => rfl
    · exact funext fun a => by match a with | ⟨0, _⟩ => rfl | ⟨1, _⟩ => rfl | ⟨2, _⟩ => rfl
    · exact funext fun a => by match a with | ⟨0, _⟩ => rfl | ⟨1, _⟩ => rfl
  · exact congrArg x3 (funext fun a => by match a with | ⟨0, _⟩ => rfl)

/-- For real encoder, decoder and weight entries the reference's result is the array of logits. -/
theorem ref_eq_logits (x0 : (⟨S8x256x512, .f32⟩ : BufTy).Contents (Elt Ideal)) (x1 : (⟨S8x64x512, .f32⟩ : BufTy).Contents (Elt Ideal))
    (x2 : (⟨S1024x512, .f32⟩ : BufTy).Contents (Elt Ideal)) (x3 : (⟨S1024, .f32⟩ : BufTy).Contents (Elt Ideal))
    (h0 : ∀ i, IsReal (x0 i)) (h1 : ∀ i, IsReal (x1 i)) (h2 : ∀ i, IsReal (x2 i)) :
    val_main_v8 (F := Ideal) x0 x1 x2 x3 = logits x0 x1 x2 x3 := by
  funext j
  obtain ⟨b, t, u, v, rfl⟩ : ∃ (b : Fin 8) (t : Fin 256) (u : Fin 64) (v : Fin 1024), j = ix4 b t u v :=
    ⟨j 0, j 1, j 2, j 3, eq_ix4 j⟩
  exact (ref_at x0 x1 x2 x3 b t u v).trans (fused_eq_logitAt x0 x1 x2 x3 h0 h1 h2 b t u v)

end Cert.Joint.RefValue

end
-- ==== Proof.Finite.lean ====
/-
  Finite inputs are real.

  The precondition says, of each of the four argument arrays, that every entry's absolute value is below +∞ (the
  conjunction of four "all entries" reductions). On the extended reals |x| = max x (−x), which is +∞ exactly at the
  two infinities; so every entry is a real number.
-/
import proofs.«101334_j29317446763071_2_alg».proof.Pre_finite_inputs
import proofs.«101334_j29317446763071_2_alg».proof.Proof.LibAggLinear
import Idealize.ShloMosaic.PureOps.Ideal
import Idealize.ShloMosaic.Lib.ValueIdx
import Idealize.ShloMosaic.Lib.ReduceAll
import Idealize.ShloMosaic.Lib.Affine

noncomputable section

namespace Cert.Joint.Finite

open Idealize.ShloMosaic Idealize.ShloMosaic.ValueIdx Cert.Lib.AggLinear Cert.Pre_finite_inputs

/-- The pattern the precondition compares against denotes +∞. -/
theorem inf_word : Ideal.ofBits .f32 0x7F800000#32 = (⊤ : EReal) := by simp [Ideal.ofBits, Ideal.ieee]

/-- An extended real whose absolute value is below +∞ is a real. -/
theorem isReal_of_abs_lt (x : EReal) (h : Ideal.cmp .olt (max x (-x)) (Ideal.ofBits .f32 0x7F800000#32) = 1#1) : IsReal x := by
  rw [inf_word] at h
  have hlt : max x (-x) < ⊤ := by
    unfold Ideal.cmp at h
    by_contra hn
    simp [hn] at h
  induction x using EReal.rec with
  | bot => simp at hlt
  | top => simp at hlt
  | coe r => exact ⟨r, rfl⟩

instance : Subsingleton S_.Idx := ⟨fun a b => funext fun d => d.elim0⟩

/-- Under the precondition every entry of every argument array is a real. -/
theorem real_of_pre [Cert.Pre_finite_inputs.Facts] (a0 : FVec Ideal S8x256x512 .f32) (a1 : FVec Ideal S8x64x512 .f32)
    (a2 : FVec Ideal S1024x512 .f32) (a3 : FVec Ideal S1024 .f32)
    (h : Cert.Pre_finite_inputs.fn (F := Ideal) a0 a1 a2 a3 = fun _ => 1#1) :
    (∀ i, IsReal (a0 i)) ∧ (∀ i, IsReal (a1 i)) ∧ (∀ i, IsReal (a2 i)) ∧ (∀ i, IsReal (a3 i)) := by
  have h' := congrFun h ix0
  dsimp only [Cert.Pre_finite_inputs.fn, Cert.Pre_finite_inputs.fn_part1] at h'
  obtain ⟨h012, h3⟩ := IntOp.andi_eq_one.mp h'
  obtain ⟨h01, h2⟩ := IntOp.andi_eq_one.mp h012
  obtain ⟨h0, h1⟩ := IntOp.andi_eq_one.mp h01
  refine ⟨fun i => ?_, fun i => ?_, fun i => ?_, fun i => ?_⟩
  · exact isReal_of_abs_lt (a0 i) (Host.reduce_andi_all _ _ _ _ ix0 h0 i)
  · exact isReal_of_abs_lt (a1 i) (Host.reduce_andi_all _ _ _ _ ix0 h1 i)
  · exact isReal_of_abs_lt (a2 i) (Host.reduce_andi_all _ _ _ _ ix0 h2 i)
  · exact isReal_of_abs_lt (a3 i) (Host.reduce_andi_all _ _ _ _ ix0 h3 i)

end Cert.Joint.Finite

end
-- ==== Proof.lean ====
/-
  Joint-network logits: out[b,t,u,v] = ∑ₖ (enc[b,t,k] + dec[b,u,k]) · W[v,k] + bias[v], over f32[8,256,512],
  f32[8,64,512], f32[1024,512], f32[1024] to f32[8,256,64,1024].

  The kernel never forms the broadcast sum. A linear layer is affine, so it applies it to the two rows apart:
  at each grid point (batch b, tile ti of 64 encoder rows) it projects the encoder tile on the weights' rows; at the
  first tile of a batch it also projects the batch's 64 decoder rows, adds the bias, and keeps that [64, 1024] value in
  a scratch the three later tiles of the batch find unchanged; a loop of eight trips then writes the output block in
  slices of eight decoder rows, each the encoder projection spread over the eight rows plus those rows of the scratch.
  The reference spreads the rows, adds them, contracts with the weights' rows and adds the bias.

  On the extended reals both matrix products are plain sums over k and a change of float format is the identity, so
  the kernel's result is ∑ₖ enc·W + (∑ₖ dec·W + bias) and the reference's is ∑ₖ (enc + dec)·W + bias. They agree by
  distributing the product over the sum under ∑ₖ — a law that fails at the infinities, which is where the
  precondition is used: every entry of every input is finite, hence a real number.

  The three frames are the generated ones (the reference's is its run with the result dropped); the kernel's
  idealization rewrote nothing, so the preservation claim is trivial.
-/
import proofs.«101334_j29317446763071_2_alg».proof.Defs
import proofs.«101334_j29317446763071_2_alg».proof.Proof.Gen.Kernel
import proofs.«101334_j29317446763071_2_alg».proof.Proof.Gen.Kernel.Skeleton
import proofs.«101334_j29317446763071_2_alg».proof.Proof.Gen.Kernel.Loops
import proofs.«101334_j29317446763071_2_alg».proof.Proof.Gen.Kernel.Launch
import proofs.«101334_j29317446763071_2_alg».proof.Proof.Gen.Kernel.Points
import proofs.«101334_j29317446763071_2_alg».proof.Proof.Gen.Kernel.Frame
import proofs.«101334_j29317446763071_2_alg».proof.Proof.Gen.KernelIdeal
import proofs.«101334_j29317446763071_2_alg».proof.Proof.Gen.KernelIdeal.Skeleton
import proofs.«101334_j29317446763071_2_alg».proof.Proof.Gen.KernelIdeal.Loops
import proofs.«101334_j29317446763071_2_alg».proof.Proof.Gen.KernelIdeal.Launch
import proofs.«101334_j29317446763071_2_alg».proof.Proof.Gen.KernelIdeal.Points
import proofs.«101334_j29317446763071_2_alg».proof.Proof.Gen.KernelIdeal.Frame
import proofs.«101334_j29317446763071_2_alg».proof.Proof.Gen.ReferenceIdeal
import proofs.«101334_j29317446763071_2_alg».proof.Proof.Gen.Pre_finite_inputs
import proofs.«101334_j29317446763071_2_alg».proof.Proof.Gen.KernelIdeal.Value
import proofs.«101334_j29317446763071_2_alg».proof.Proof.Gen.ReferenceIdeal.Run
import proofs.«101334_j29317446763071_2_alg».proof.Proof.Gen.ReferenceIdeal.Read
import proofs.«101334_j29317446763071_2_alg».proof.Proof.KernelValue
import proofs.«101334_j29317446763071_2_alg».proof.Proof.RefValue
import proofs.«101334_j29317446763071_2_alg».proof.Proof.Finite
import Idealize.ShloMosaic.Adequacy
import Idealize.ShloMosaic.Init

noncomputable section

namespace Cert.Proof

open Idealize.ShloMosaic Idealize.SL.Sem

/-- The kernel as printed runs to the end, faultless, its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories agreeing on finite arguments, both programs end with the array of logits:
    the kernel by its blocks, the reference by its operations read at an index and the distributive law. -/
theorem algebraic : Cert.algebraic_KernelIdeal_ReferenceIdeal := by
  intro m ρ m' ρ' hpre hagree
  refine ⟨fun c => Cert.Joint.logits
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.Joint.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2.1, (hagree c).2.2.1, (hagree c).2.2.2]
  obtain ⟨r0, r1, r2, -⟩ := Cert.Joint.Finite.real_of_pre _ _ _ _ (hpre c)
  exact Cert.Joint.RefValue.ref_eq_logits _ _ _ _ r0 r1 r2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
